-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x1024 : Shape := ⟨2, ![64, 1024]⟩
abbrev S4096x512 : Shape := ⟨2, ![4096, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S512x1 .f32) (main_arg6 : FVec F S1 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S64x512x1024 .f32) (main_arg1 : FVec F S64x1024 .f32) (main_arg2 : FVec F S64x1024 .f32) (main_arg3 : FVec F S4096x512 .f32) (main_arg4 : FVec F S512 .f32) (main_arg5 : FVec F S512x1 .f32) (main_arg6 : FVec F S1 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Kernel.lean ====
abbrev S64x512x1024 : Shape := ⟨3, ![64, 512, 1024]⟩
abbrev S64x1024 : Shape := ⟨2, ![64, 1024]⟩
abbrev S4096x512 : Shape := ⟨2, ![4096, 512]⟩
abbrev S512 : Shape := ⟨1, ![512]⟩
abbrev S512x1 : Shape := ⟨2, ![512, 1]⟩
abbrev S1 : Shape := ⟨1, ![1]⟩
abbrev S64x1x1024 : Shape := ⟨3, ![64, 1, 1024]⟩
abbrev S64x512x1 : Shape := ⟨3, ![64, 512, 1]⟩
abbrev S1x256x1024 : Shape := ⟨3, ![1, 256, 1024]⟩
abbrev S1x1x1024 : Shape := ⟨3, ![1, 1, 1024]⟩
abbrev S1x256x1 : Shape := ⟨3, ![1, 256, 1]⟩
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S1x512 : Shape := ⟨2, ![1, 512]⟩
abbrev S256x1 : Shape := ⟨2, ![256, 1]⟩
abbrev S1x1 : Shape := ⟨2, ![1, 1]⟩
abbrev S_ : Shape := ⟨0, ![]⟩
abbrev S64x512 : Shape := ⟨2, ![64, 512]⟩

abbrev nBuf : Space → Nat
  | .hbm => 24
  | .vmem => 12
  | .smem => 0
  | _ => 0

abbrev bufTy : (tb : Table) → Fin (tcTables nBuf tb) → BufTy
  | .hbm, ⟨0, _⟩ => ⟨S64x512x1024, .f32⟩
  | .hbm, ⟨1, _⟩ => ⟨S64x1024, .f32⟩
  | .hbm, ⟨2, _⟩ => ⟨S64x1024, .f32⟩
  | .hbm, ⟨3, _⟩ => ⟨S4096x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S64x1x1024, .f32⟩
  | .hbm, ⟨8, _⟩ => ⟨S64x1x1024, .f32⟩
  | .hbm, ⟨9, _⟩ => ⟨S4096x512, .bf16⟩
  | .hbm, ⟨10, _⟩ => ⟨S512x1, .bf16⟩
  | .hbm, ⟨11, _⟩ => ⟨S64x512x1, .f32⟩
  | .hbm, ⟨12, _⟩ => ⟨S_, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512x1, .f32⟩
  | .hbm, ⟨18, _⟩ => ⟨S64x512x1, .f32⟩
  | .hbm, ⟨19, _⟩ => ⟨S64x512x1, .f32⟩
  | .hbm, ⟨20, _⟩ => ⟨S_, .f32⟩
  | .hbm, ⟨21, _⟩ => ⟨S64x512, .f32⟩
  | .hbm, ⟨22, _⟩ => ⟨S64x512x1, .f32⟩
  | .hbm, ⟨23, _⟩ => ⟨S64x512x1, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S4096x512, .bf16⟩
  | .local _ .vmem, ⟨7, _⟩ => ⟨S512, .f32⟩
  | .local _ .vmem, ⟨8, _⟩ => ⟨S512x1, .bf16⟩
  | .local _ .vmem, ⟨9, _⟩ => ⟨S1, .f32⟩
  | .local _ .vmem, ⟨10, _⟩ => ⟨S1x256x1, .f32⟩
  | .local _ .vmem, ⟨11, _⟩ => ⟨S1x256x1, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S64x1024_S64x1x1024_0_2 : S64x1024.BroadcastsInDim S64x1x1024 (![0, 2] : Fin 2 → Fin S64x1x1024.rank)
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  inb_S4096x512_S1024x512_0_0 : ∀ a, (![0, 0] : Fin 2 → Nat) a + S1024x512.size a ≤ S4096x512.size a
  h_S1024x512 : 0 < S1024x512.numel
  shapeCasts_S1024x512_S1024x512 : S1024x512.ShapeCasts S1024x512
  inb_S4096x512_S1024x512_1024_0 : ∀ a, (![1024, 0] : Fin 2 → Nat) a + S1024x512.size a ≤ S4096x512.size a
  inb_S4096x512_S1024x512_2048_0 : ∀ a, (![2048, 0] : Fin 2 → Nat) a + S1024x512.size a ≤ S4096x512.size a
  inb_S4096x512_S1024x512_3072_0 : ∀ a, (![3072, 0] : Fin 2 → Nat) a + S1024x512.size a ≤ S4096x512.size a
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S64x512x1_S64x512_d2 : S64x512x1.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  dot_S256x1024_S1024x512_S256x512_1_0_0_1_n_n_wf : DotDims.WF S256x1024 S1024x512 S256x512 [1] [0] [0] [1] [] []
  dot_S256x512_S512x1_S256x1_1_0_0_1_n_n_wf : DotDims.WF S256x512 S512x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x512x1024.size a
  hwx0_0 : ∀ i : grid0.Coords, EltTy.bits .f32 = 32 ∨ (Rect.block (s := S64x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .bf16 = 32 ∨ (Rect.block (s := S512x1) S512x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1.size a ≤ S64x512x1.size a
  hwx0_7 : ∀ i : grid0.Coords, EltTy.bits .f32 = 32 ∨ (Rect.block (s := S64x512x1) S1x256x1.size (cc0_transform_7 i) (hinb0_7 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x1024 : Shape := ⟨2, ![64, 1024]⟩
abbrev S4096x512 : Shape := ⟨2, ![4096, 512]⟩
abbrev S512 : Shape := ⟨1, ![512]⟩
abbrev S512x1 : Shape := ⟨2, ![512, 1]⟩
abbrev S1 : Shape := ⟨1, ![1]⟩
abbrev S64x1x1024 : Shape := ⟨3, ![64, 1, 1024]⟩
abbrev S64x512x4096 : Shape := ⟨3, ![64, 512, 4096]⟩
abbrev S64x512x512 : Shape := ⟨3, ![64, 512, 512]⟩
abbrev S1x1x512 : Shape := ⟨3, ![1, 1, 512]⟩
abbrev S64x512x1 : Shape := ⟨3, ![64, 512, 1]⟩
abbrev S1x1x1 : Shape := ⟨3, ![1, 1, 1]⟩
abbrev S_ : Shape := ⟨0, ![]⟩
abbrev S64x512 : Shape := ⟨2, ![64, 512]⟩

abbrev nBuf : Space → Nat
  | .hbm => 41
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x1024, .f32⟩
  | .hbm, ⟨2, _⟩ => ⟨S64x1024, .f32⟩
  | .hbm, ⟨3, _⟩ => ⟨S4096x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S64x1x1024, .f32⟩
  | .hbm, ⟨8, _⟩ => ⟨S64x1x1024, .f32⟩
  | .hbm, ⟨9, _⟩ => ⟨S64x512x1024, .f32⟩
  | .hbm, ⟨10, _⟩ => ⟨S64x512x1024, .f32⟩
  | .hbm, ⟨11, _⟩ => ⟨S64x512x1024, .f32⟩
  | .hbm, ⟨12, _⟩ => ⟨S64x512x1024, .f32⟩
  | .hbm, ⟨13, _⟩ => ⟨S64x512x1024, .f32⟩
  | .hbm, ⟨14, _⟩ => ⟨S64x512x1024, .f32⟩
  | .hbm, ⟨15, _⟩ => ⟨S64x512x1024, .f32⟩
  | .hbm, ⟨16, _⟩ => ⟨S64x512x1024, .f32⟩
  | .hbm, ⟨17, _⟩ => ⟨S64x512x1024, .f32⟩
  | .hbm, ⟨18, _⟩ => ⟨S64x512x1024, .f32⟩
  | .hbm, ⟨19, _⟩ => ⟨S64x512x4096, .f32⟩
  | .hbm, ⟨20, _⟩ => ⟨S64x512x512, .f32⟩
  | .hbm, ⟨21, _⟩ => ⟨S1x1x512, .f32⟩
  | .hbm, ⟨22, _⟩ => ⟨S64x512x512, .f32⟩
  | .hbm, ⟨23, _⟩ => ⟨S64x512x512, .f32⟩
  | .hbm, ⟨24, _⟩ => ⟨S64x512x512, .f32⟩
  | .hbm, ⟨25, _⟩ => ⟨S64x512x1, .f32⟩
  | .hbm, ⟨26, _⟩ => ⟨S1x1x1, .f32⟩
  | .hbm, ⟨27, _⟩ => ⟨S64x512x1, .f32⟩
  | .hbm, ⟨28, _⟩ => ⟨S64x512x1, .f32⟩
  | .hbm, ⟨29, _⟩ => ⟨S_, .f32⟩
  | .hbm, ⟨30, _⟩ => ⟨S64x512, .f32⟩
  | .hbm, ⟨31, _⟩ => ⟨S_, .f32⟩
  | .hbm, ⟨32, _⟩ => ⟨S64x512, .f32⟩
  | .hbm, ⟨33, _⟩ => ⟨S64x512, .f32⟩
  | .hbm, ⟨34, _⟩ => ⟨S64x512x1, .f32⟩
  | .hbm, ⟨35, _⟩ => ⟨S64x512x1, .f32⟩
  | .hbm, ⟨36, _⟩ => ⟨S64x512x1, .f32⟩
  | .hbm, ⟨37, _⟩ => ⟨S_, .f32⟩
  | .hbm, ⟨38, _⟩ => ⟨S64x512, .f32⟩
  | .hbm, ⟨39, _⟩ => ⟨S64x512x1, .f32⟩
  | .hbm, ⟨40, _⟩ => ⟨S64x512x1, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  bcast_S64x1x1024_S64x512x1024_0_1_2 : S64x1x1024.BroadcastsInDim S64x512x1024 (![0, 1, 2] : Fin 3 → Fin S64x512x1024.rank)
  concatenates_S64x512x1024_S64x512x1024_S64x512x1024_S64x512x1024_S64x512x4096_d2 : Shape.Concatenates [S64x512x1024, S64x512x1024, S64x512x1024, S64x512x1024] S64x512x4096 2
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  dot_S64x512x4096_S4096x512_S64x512x512_2_0_01_1_n_n_wf : DotDims.WF S64x512x4096 S4096x512 S64x512x512 [2] [0] [0, 1] [1] [] []
  dot_S64x512x512_S512x1_S64x512x1_2_0_01_1_n_n_wf : DotDims.WF S64x512x512 S512x1 S64x512x1 [2] [0] [0, 1] [1] [] []

variable [Facts₀]

def dot_S64x512x4096_S4096x512_S64x512x512_2_0_01_1_n_n : DotDims S64x512x4096 S4096x512 S64x512x512 where
  lhsContracting := [2]
  rhsContracting := [0]
  lhsNonContracting := [0, 1]
  rhsNonContracting := [1]
  lhsBatch := []
  rhsBatch := []
  wf := dot_S64x512x4096_S4096x512_S64x512x512_2_0_01_1_n_n_wf
def dot_S64x512x512_S512x1_S64x512x1_2_0_01_1_n_n : DotDims S64x512x512 S512x1 S64x512x1 where
  lhsContracting := [2]
  rhsContracting := [0]
  lhsNonContracting := [0, 1]
  rhsNonContracting := [1]
  lhsBatch := []
  rhsBatch := []
  wf := dot_S64x512x512_S512x1_S64x512x1_2_0_01_1_n_n_wf

class Facts : Prop extends Facts₀ where

variable [Facts]
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.KernelPayload.lean ====
/-
  The kernel body's two values read entry by entry, at the ideal values.

  A row block of 256 fact rows (one batch entry, stored 1 × 256 × 1024), the entry's question and memory rows
  (1 × 1 × 1024 each) and the four 1024-row slices of the first layer's weights give the first layer before the
  bias: at row `r` and unit `u` the four contractions over the 1024 features, added in order — the two product
  features first, then the two distance features. The bias, the tangent, the second layer's one column and its
  bias give the block of logits, stored 1 × 256 × 1.

  Changes of float format are the identity at the ideal values, a matrix product into the zero tile is the sum of
  products over the contracted coordinate, and the layout operations (a leading unit axis dropped or added, one
  row stretched over 256) only rename coordinates.
-/
import proofs.«144417_j83141976916929_1_alg».proof.Proof.Gen.KernelIdeal.Skeleton
import proofs.«144417_j83141976916929_1_alg».proof.Proof.LibTileOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GateValue

open Cert.KernelIdeal Cert.KernelIdeal.Gen Idealize.ShloMosaic Idealize.ShloMosaic.ValueIdx

/-- An absolute value at the ideal values is the larger of the number and its negative. -/
theorem absf_apply {s : Shape} {φ : FTy} (a : FVec Ideal s φ) (i : s.Idx) : absf a i = max (a i) (-(a i)) := rfl

/-- A tangent is taken entry by entry. -/
theorem tanh_apply {s : Shape} {φ : FTy} (a : FVec Ideal s φ) (i : s.Idx) : tanh a i = Ideal.tanh (a i) := rfl

/-- The first layer's product of a 256 × 1024 tile by a 1024 × 512 slice into the zero tile, at (r, u). -/
theorem matmul1_apply (A : FVec Ideal S256x1024 .bf16) (B : FVec Ideal S1024x512 .bf16) (r : Fin 256) (u : Fin 512) :
    matmul dot_S256x1024_S1024x512_S256x512_1_0_0_1_n_n none A B (constant (F := Ideal) S256x512 .f32 0x00000000#32) (ix2 r u)
      = ∑ d : Fin 1024, A (ix2 r d) * B (ix2 d u) :=
  TileOps.matmul_zero_apply dot_S256x1024_S1024x512_S256x512_1_0_0_1_n_n_wf none A B r u

/-- The second layer's product of a 256 × 512 tile by the 512 × 1 column into the zero tile, at (r, o). -/
theorem matmul2_apply (A : FVec Ideal S256x512 .bf16) (B : FVec Ideal S512x1 .bf16) (r : Fin 256) (o : Fin 1) :
    matmul dot_S256x512_S512x1_S256x1_1_0_0_1_n_n none A B (constant (F := Ideal) S256x1 .f32 0x00000000#32) (ix2 r o)
      = ∑ u : Fin 512, A (ix2 r u) * B (ix2 u o) :=
  TileOps.matmul_zero_apply dot_S256x512_S512x1_S256x1_1_0_0_1_n_n_wf none A B r o

/-- The first layer before the bias, at row `r` of the block and unit `u`. -/
theorem firstLayer_apply (v0 : Vec Ideal S1x256x1024 .f32) (v2 v4 : Vec Ideal S1x1x1024 .f32)
    (w0 w1 w2 w3 : Vec Ideal S1024x512 .bf16) (r : Fin 256) (u : Fin 512) :
    k0_pay2 v0 v2 v4 w0 w1 w2 w3 (ix2 r u)
      = (((∑ d : Fin 1024, (v0 (ix3 (0 : Fin 1) r d) * v2 (ix3 (0 : Fin 1) (0 : Fin 1) d)) * w0 (ix2 d u))
          + ∑ d : Fin 1024, (v0 (ix3 (0 : Fin 1) r d) * v4 (ix3 (0 : Fin 1) (0 : Fin 1) d)) * w1 (ix2 d u))
          + ∑ d : Fin 1024, max (v0 (ix3 (0 : Fin 1) r d) - v2 (ix3 (0 : Fin 1) (0 : Fin 1) d))
              (-(v0 (ix3 (0 : Fin 1) r d) - v2 (ix3 (0 : Fin 1) (0 : Fin 1) d))) * w2 (ix2 d u))
          + ∑ d : Fin 1024, max (v0 (ix3 (0 : Fin 1) r d) - v4 (ix3 (0 : Fin 1) (0 : Fin 1) d))
              (-(v0 (ix3 (0 : Fin 1) r d) - v4 (ix3 (0 : Fin 1) (0 : Fin 1) d))) * w3 (ix2 d u) := by
  unfold k0_pay2
  simp only [addf_apply, matmul1_apply, truncf_apply, mulf_apply, subf_apply, absf_apply, shapeCast_self,
    shapeCast_1ab_ab_apply, broadcastTo_1b_ab_apply]

/-- The block of logits, at row `r`. -/
theorem secondLayer_apply (h : FVec Ideal S256x512 .f32) (b1 : Vec Ideal S512 .f32) (w : Vec Ideal S512x1 .bf16)
    (b2 : Vec Ideal S1 .f32) (z : Fin 1) (r : Fin 256) (o : Fin 1) :
    k0_pay1 h b1 w b2 (ix3 z r o)
      = (∑ u : Fin 512, Ideal.tanh (h (ix2 r u) + b1 (ix1 u)) * w (ix2 u o)) + b2 (ix1 o) := by
  unfold k0_pay1
  simp only [shapeCast_ab_1ab_apply, addf_apply, matmul2_apply, truncf_apply, tanh_apply, shapeCast_self,
    broadcastTo_1b_ab_apply, shapeCast_a_1a_apply]

end Cert.KernelIdeal.GateValue

end
-- ==== Proof.Spec.lean ====
/-
  The gate's logits, stated once over plain index types, with no program in sight.

  For a batch entry `b` and a time step `t` the four feature maps of a fact row `f b t ·` against the
  question row `q b ·` and the memory row `m b ·` are the two products `f·q`, `f·m` and the two distances
  `|f − q|`, `|f − m|` (an absolute value is the larger of a number and its negative). The first dense layer
  contracts their concatenation, of width 4·1024, with `W1`; written slice by slice that is the sum of four
  contractions of width 1024, slice `s` against rows `1024·s …` of `W1`. The bias `b1`, a hyperbolic tangent,
  the second layer `W2` (one output unit) and the bias `b2` follow.

  `sum_four_slices` is the one law joining the two arrangements: a sum over 4096 consecutive indices is
  the sum of its four quarters, in any commutative monoid (so at the infinities too).
-/
import Idealize.ShloMosaic.PureOps.Ideal
import Idealize.ShloMosaic.Lib.ValueIdx

noncomputable section

namespace Cert.GateSpec

open Idealize.ShloMosaic Idealize.ShloMosaic.ValueIdx

/-- Row `o + d` of the first layer's weights: row `d` of the slice that starts at row `o`. -/
abbrev sliceRow (o : Nat) (ho : o + 1024 ≤ 4096) (d : Fin 1024) : Fin 4096 := ⟨o + d.val, by have := d.isLt; omega⟩

variable (f : (⟨3, ![64, 512, 1024]⟩ : Shape).Idx → EReal)
  (q m : (⟨2, ![64, 1024]⟩ : Shape).Idx → EReal)
  (W1 : (⟨2, ![4096, 512]⟩ : Shape).Idx → EReal)
  (b1 : (⟨1, ![512]⟩ : Shape).Idx → EReal)
  (W2 : (⟨2, ![512, 1]⟩ : Shape).Idx → EReal)
  (b2 : (⟨1, ![1]⟩ : Shape).Idx → EReal)

/-- The product feature `f · r` of a fact row and a question or memory row. -/
def prodFeat (r : (⟨2, ![64, 1024]⟩ : Shape).Idx → EReal) (b : Fin 64) (t : Fin 512) (d : Fin 1024) : EReal :=
  f (ix3 b t d) * r (ix2 b d)

/-- The distance feature `|f − r|`. -/
def distFeat (r : (⟨2, ![64, 1024]⟩ : Shape).Idx → EReal) (b : Fin 64) (t : Fin 512) (d : Fin 1024) : EReal :=
  max (f (ix3 b t d) - r (ix2 b d)) (-(f (ix3 b t d) - r (ix2 b d)))

/-- Unit `u` of the first layer before the tangent: the four slices' contractions, added in order, plus the bias. -/
def hidden (b : Fin 64) (t : Fin 512) (u : Fin 512) : EReal :=
  ((((∑ d : Fin 1024, prodFeat f q b t d * W1 (ix2 (sliceRow 0 (by omega) d) u))
      + (∑ d : Fin 1024, prodFeat f m b t d * W1 (ix2 (sliceRow 1024 (by omega) d) u)))
      + (∑ d : Fin 1024, distFeat f q b t d * W1 (ix2 (sliceRow 2048 (by omega) d) u)))
      + (∑ d : Fin 1024, distFeat f m b t d * W1 (ix2 (sliceRow 3072 (by omega) d) u)))
    + b1 (ix1 u)

/-- The logit of entry `b`, step `t`. -/
def logit (b : Fin 64) (t : Fin 512) : EReal :=
  (∑ u : Fin 512, Ideal.tanh (hidden f q m W1 b1 b t u) * W2 (ix2 u (0 : Fin 1))) + b2 (ix1 (0 : Fin 1))

/-- All logits as one array of shape 64 × 512 × 1. -/
def logits : (⟨3, ![64, 512, 1]⟩ : Shape).Idx → EReal := fun i => logit f q m W1 b1 W2 b2 (i 0) (i 1)

/-- A sum over `a + b` consecutive indices is the sum over the first `a` plus the sum over the last `b`. -/
theorem sum_split {M : Type*} [AddCommMonoid M] (a b N : Nat) (h : a + b = N) (g : Fin N → M) :
    ∑ k, g k = (∑ i : Fin a, g ⟨i.val, by have := i.isLt; omega⟩) + ∑ j : Fin b, g ⟨a + j.val, by have := j.isLt; omega⟩ := by
  subst h
  rw [Fin.sum_univ_add]
  rfl

/-- A sum over 4096 consecutive indices is the sum of its four quarters. -/
theorem sum_four_slices {M : Type*} [AddCommMonoid M] (g : Fin 4096 → M) :
    ∑ k, g k = (((∑ d : Fin 1024, g (sliceRow 0 (by omega) d)) + ∑ d : Fin 1024, g (sliceRow 1024 (by omega) d))
      + ∑ d : Fin 1024, g (sliceRow 2048 (by omega) d)) + ∑ d : Fin 1024, g (sliceRow 3072 (by omega) d) := by
  rw [sum_split 3072 1024 4096 rfl g, sum_split 2048 1024 3072 rfl, sum_split 1024 1024 2048 rfl]
  refine congrArg₂ (· + ·) (congrArg₂ (· + ·) (congrArg₂ (· + ·) ?_ ?_) ?_) ?_ <;>
    exact Finset.sum_congr rfl fun d _ => congrArg g (Fin.ext (by simp))

end Cert.GateSpec

end
-- ==== Proof.KernelBlock.lean ====
/-
  What the kernel body leaves in the output block, entry by entry, as a function of the seven input blocks.

  The body stores once, over the whole 1 × 256 × 1 block, so the block after the body is that store's value; the loads
  of the fact, question, memory, bias and second-layer blocks read the whole blocks, and the four loads of the
  first layer's weights read rows `o … o + 1023` of the 4096 × 512 block for `o` = 0, 1024, 2048, 3072.
-/
import proofs.«144417_j83141976916929_1_alg».proof.Proof.Gen.KernelIdeal.Frame
import proofs.«144417_j83141976916929_1_alg».proof.Proof.KernelPayload
import proofs.«144417_j83141976916929_1_alg».proof.Proof.Spec

noncomputable section

namespace Cert.KernelIdeal.GateValue

open Cert.KernelIdeal Cert.KernelIdeal.Gen Idealize.ShloMosaic Idealize.ShloMosaic.ValueIdx Cert.GateSpec

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Rows `o … o + 1023` of the weights block: its entry (d, u) sits at row `o + d`, column `u` of the block. -/
theorem slice_idx (o : Nat) (ho : o + 1024 ≤ 4096)
    (inb : ∀ a, (![o, 0] : Fin 2 → Nat) a + S1024x512.size a ≤ S4096x512.size a) (d : Fin 1024) (u : Fin 512) :
    (Rect.unit (s := S4096x512) ![o, 0] S1024x512.size inb).idx (ix2 d u) = ix2 (sliceRow o ho d) u := by
  funext a
  apply Fin.ext
  match a with
  | ⟨0, _⟩ => show o + 1 * d.val = o + d.val; omega
  | ⟨1, _⟩ => show 0 + 1 * u.val = u.val; omega

/-- The four slices the body loads. -/
theorem slice0_idx (d : Fin 1024) (u : Fin 512) : r0_2.idx (ix2 d u) = ix2 (sliceRow 0 (by omega) d) u :=
  slice_idx 0 (by omega) _ d u
theorem slice1_idx (d : Fin 1024) (u : Fin 512) : r0_3.idx (ix2 d u) = ix2 (sliceRow 1024 (by omega) d) u :=
  slice_idx 1024 (by omega) _ d u
theorem slice2_idx (d : Fin 1024) (u : Fin 512) : r0_4.idx (ix2 d u) = ix2 (sliceRow 2048 (by omega) d) u :=
  slice_idx 2048 (by omega) _ d u
theorem slice3_idx (d : Fin 1024) (u : Fin 512) : r0_5.idx (ix2 d u) = ix2 (sliceRow 3072 (by omega) d) u :=
  slice_idx 3072 (by omega) _ d u

/-- The output block after the body, at row `r`: the logit of that row from the blocks. -/
theorem block_apply (x0 : Vec Ideal S1x256x1024 .f32) (x1 x2 : Vec Ideal S1x1x1024 .f32) (x3 : Vec Ideal S4096x512 .bf16)
    (x4 : Vec Ideal S512 .f32) (x5 : Vec Ideal S512x1 .bf16) (x6 : Vec Ideal S1 .f32) (z : Fin 1) (r : Fin 256) (o : Fin 1) :
    out0_7 x0 x1 x2 x3 x4 x5 x6 (ix3 z r o)
      = (∑ u : Fin 512, Ideal.tanh
          (((((∑ d : Fin 1024, (x0 (ix3 (0 : Fin 1) r d) * x1 (ix3 (0 : Fin 1) (0 : Fin 1) d)) * x3 (ix2 (sliceRow 0 (by omega) d) u))
            + ∑ d : Fin 1024, (x0 (ix3 (0 : Fin 1) r d) * x2 (ix3 (0 : Fin 1) (0 : Fin 1) d)) * x3 (ix2 (sliceRow 1024 (by omega) d) u))
            + ∑ d : Fin 1024, max (x0 (ix3 (0 : Fin 1) r d) - x1 (ix3 (0 : Fin 1) (0 : Fin 1) d))
                (-(x0 (ix3 (0 : Fin 1) r d) - x1 (ix3 (0 : Fin 1) (0 : Fin 1) d))) * x3 (ix2 (sliceRow 2048 (by omega) d) u))
            + ∑ d : Fin 1024, max (x0 (ix3 (0 : Fin 1) r d) - x2 (ix3 (0 : Fin 1) (0 : Fin 1) d))
                (-(x0 (ix3 (0 : Fin 1) r d) - x2 (ix3 (0 : Fin 1) (0 : Fin 1) d))) * x3 (ix2 (sliceRow 3072 (by omega) d) u))
            + x4 (ix1 u)) * x5 (ix2 u o))
        + x6 (ix1 o) := by
  unfold out0_7
  rw [View.canon_unit_zero zeros3]
  simp only [View.ld_unit_zero (S := S1x256x1024) zeros3, View.ld_unit_zero (S := S1x1x1024) zeros3,
    View.ld_unit_zero (S := S512) zeros1, View.ld_unit_zero (S := S512x1) zeros2, View.ld_unit_zero (S := S1) zeros1]
  rw [secondLayer_apply]
  simp only [firstLayer_apply, View.ld, slice0_idx, slice1_idx, slice2_idx, slice3_idx]

end Cert.KernelIdeal.GateValue

end
-- ==== Proof.KernelArray.lean ====
/-
  The kernel's logits array after the run, and the result after the softmax lines.

  The grid has 64 × 2 points; point (b, s) works on batch entry `b` and rows `256·s … 256·s + 255` of its 512 time
  steps. Its fact block is those rows of `facts`; its question and memory blocks are row `b` of `question` and
  `memory` (each stored 64 × 1 × 1024 by the host lines before the call); the weights, biases and second layer are
  whole blocks at every point (the two weight arrays pass through a change of float format, the identity at the ideal
  values). So what a point writes back is its block of ONE array, the specification's logits; the 128 blocks tile
  the 64 × 512 × 1 array, which therefore ends holding the logits; and the host lines after the call apply the
  softmax to it.
-/
import proofs.«144417_j83141976916929_1_alg».proof.Proof.Gen.KernelIdeal.Frame
import proofs.«144417_j83141976916929_1_alg».proof.Proof.KernelBlock
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.GateValue

open Cert.KernelIdeal Cert.KernelIdeal.Gen Idealize.ShloMosaic.ValueIdx Idealize.ShloMosaic.StableHlo Cert.GateSpec

variable (m : (ℓ : Loc nD τ sig) → Buf (Elt Ideal) ℓ) (ρ : Dev nD → PrngReg)

/-- The question array as the region finds it: `question` with a unit axis inserted, 64 × 1 × 1024. -/
theorem V_main_v0 (c : Dev nD) : (V m c main_v0 : S64x1x1024.Idx → EReal)
    = broadcastInDim S64x1x1024 ![0, 2] bcast_S64x1024_S64x1x1024_0_2 (m ((c : Thread nD τ).loc main_arg1)) := by
  show StableHlo.after hostOps0 (fun b => m (c, b)) (Proc.devRef .tc main_v0) = _
  after_results <;> rfl

/-- The memory array as the region finds it: `memory` with a unit axis inserted. -/
theorem V_main_v1 (c : Dev nD) : (V m c main_v1 : S64x1x1024.Idx → EReal)
    = broadcastInDim S64x1x1024 ![0, 2] bcast_S64x1024_S64x1x1024_0_2 (m ((c : Thread nD τ).loc main_arg2)) := by
  show StableHlo.after hostOps0 (fun b => m (c, b)) (Proc.devRef .tc main_v1) = _
  after_results <;> rfl

/-- The first layer's weights as the region finds them: `W1` after a change of float format, the identity here. -/
theorem V_main_v2 (c : Dev nD) : (V m c main_v2 : S4096x512.Idx → EReal)
    = m ((c : Thread nD τ).loc main_arg3) := by
  show StableHlo.after hostOps0 (fun b => m (c, b)) (Proc.devRef .tc main_v2) = _
  after_results <;> rfl

/-- The second layer's weights as the region finds them: `W2` after a change of float format. -/
theorem V_main_v3 (c : Dev nD) : (V m c main_v3 : S512x1.Idx → EReal)
    = m ((c : Thread nD τ).loc main_arg5) := by
  show StableHlo.after hostOps0 (fun b => m (c, b)) (Proc.devRef .tc main_v3) = _
  after_results <;> rfl

/-- The index maps, decided over the 128 points: the fact block moves with the output block on the batch and time axes;
    the question and memory blocks follow it on the batch axis only; the weight and bias blocks never move; the output's
    block indices range over 64 × 2 × 1. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) < 64 ∧ win0_7.index t (1 : Fin 3) < 2 ∧ win0_7.index t (2 : Fin 3) = 0 :=
  (by decide +kernel : ∀ t : Fin grid0.N, _)

/-- Every block of the logits array is some point's. -/
theorem idx_onto : ∀ (q0 : Fin 64) (q1 : Fin 2), ∃ t : Fin cfg0.N, win0_7.index t = ![q0.val, q1.val, 0] :=
  (by decide +kernel : ∀ (q0 : Fin 64) (q1 : Fin 2), ∃ t : Fin grid0.N, win0_7.index t = ![q0.val, q1.val, 0])

/-- The fact block at a point: rows `256·s + r` of batch entry `b`, for the output block index (b, s). -/
theorem facts_blk_apply (c : Dev nD) (t : Fin cfg0.N) (r : Fin 256) (d : Fin 1024) (k : S64x512x1024.Idx)
    (hk0 : (k 0).val = win0_7.index t (0 : Fin 3)) (hk1 : (k 1).val = win0_7.index t (1 : Fin 3) * 256 + r.val)
    (hk2 : (k 2).val = d.val) :
    (iblk m c 0 t : Vec Ideal S1x256x1024 .f32) (ix3 (0 : Fin 1) r d) = (m ((c : Thread nD τ).loc main_arg0) : S64x512x1024.Idx → EReal) k := by
  obtain ⟨e00, e01, e02, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = (k 0).val; omega
  | ⟨1, _⟩ => show win0_0.index t (1 : Fin 3) * 256 + 1 * r.val = (k 1).val; omega
  | ⟨2, _⟩ => show win0_0.index t (2 : Fin 3) * 1024 + 1 * d.val = (k 2).val; omega

/-- The question block at a point: row `b` of `question`. -/
theorem question_blk_apply (c : Dev nD) (t : Fin cfg0.N) (d : Fin 1024) (k : S64x1024.Idx)
    (hk0 : (k 0).val = win0_7.index t (0 : Fin 3)) (hk1 : (k 1).val = d.val) :
    (iblk m c 1 t : Vec Ideal S1x1x1024 .f32) (ix3 (0 : Fin 1) (0 : Fin 1) d) = (m ((c : Thread nD τ).loc main_arg1) : S64x1024.Idx → EReal) k := by
  obtain ⟨-, -, -, e10, e11, e12, -⟩ := idx_facts t
  unfold iblk
  rw [View.read_apply]
  show V m c main_v0 _ = m ((c : Thread nD τ).loc main_arg1) _
  rw [V_main_v0]
  refine broadcastInDim_apply _ bcast_S64x1024_S64x1x1024_0_2 _ _ k (fun a => ?_)
  match a with
  | ⟨0, _⟩ => show (k 0).val = if (64 : Nat) = 1 then 0 else win0_1.index t (0 : Fin 3) * 1 + 1 * 0; rw [if_neg (by decide)]; omega
  | ⟨1, _⟩ => show (k 1).val = if (1024 : Nat) = 1 then 0 else win0_1.index t (2 : Fin 3) * 1024 + 1 * d.val; rw [if_neg (by decide)]; omega

/-- The first layer's weights block at any point: all of `W1`. -/
theorem w1_blk_apply (c : Dev nD) (t : Fin cfg0.N) (k : Fin 4096) (u : Fin 512) :
    (iblk m c 3 t : Vec Ideal S4096x512 .bf16) (ix2 k u) = (m ((c : Thread nD τ).loc main_arg3) : S4096x512.Idx → EReal) (ix2 k u) := by
  obtain ⟨-, -, -, -, -, -, -, -, -, e30, e31, -⟩ := idx_facts t
  unfold iblk
  rw [View.read_apply]
  show V m c main_v2 _ = m ((c : Thread nD τ).loc main_arg3) _
  rw [V_main_v2]
  congr 1
  funext a
  apply Fin.ext
  match a with
  | ⟨0, _⟩ => show win0_3.index t (0 : Fin 2) * 4096 + 1 * k.val = k.val; omega
  | ⟨1, _⟩ => show win0_3.index t (1 : Fin 2) * 512 + 1 * u.val = u.val; omega

/-- The first bias block at any point: all of `b1`. -/
theorem b1_blk_apply (c : Dev nD) (t : Fin cfg0.N) (u : Fin 512) :
    (iblk m c 4 t : Vec Ideal S512 .f32) (ix1 u) = (m ((c : Thread nD τ).loc main_arg4) : S512.Idx → EReal) (ix1 u) := by
  obtain ⟨-, -, -, -, -, -, -, -, -, -, -, e40, -⟩ := idx_facts t
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 1) * 512 + 1 * u.val = u.val; omega

/-- The memory block at a point: row `b` of `memory`. -/
theorem memory_blk_apply (c : Dev nD) (t : Fin cfg0.N) (d : Fin 1024) (k : S64x1024.Idx)
    (hk0 : (k 0).val = win0_7.index t (0 : Fin 3)) (hk1 : (k 1).val = d.val) :
    (iblk m c 2 t : Vec Ideal S1x1x1024 .f32) (ix3 (0 : Fin 1) (0 : Fin 1) d) = (m ((c : Thread nD τ).loc main_arg2) : S64x1024.Idx → EReal) k := by
  obtain ⟨-, -, -, -, -, -, e20, e21, e22, -⟩ := idx_facts t
  unfold iblk
  rw [View.read_apply]
  show V m c main_v1 _ = m ((c : Thread nD τ).loc main_arg2) _
  rw [V_main_v1]
  refine broadcastInDim_apply _ bcast_S64x1024_S64x1x1024_0_2 _ _ k (fun a => ?_)
  match a with
  | ⟨0, _⟩ => show (k 0).val = if (64 : Nat) = 1 then 0 else win0_2.index t (0 : Fin 3) * 1 + 1 * 0; rw [if_neg (by decide)]; omega
  | ⟨1, _⟩ => show (k 1).val = if (1024 : Nat) = 1 then 0 else win0_2.index t (2 : Fin 3) * 1024 + 1 * d.val; rw [if_neg (by decide)]; omega

/-- The second layer's block at any point: all of `W2`. -/
theorem w2_blk_apply (c : Dev nD) (t : Fin cfg0.N) (u : Fin 512) (o : Fin 1) :
    (iblk m c 5 t : Vec Ideal S512x1 .bf16) (ix2 u o) = (m ((c : Thread nD τ).loc main_arg5) : S512x1.Idx → EReal) (ix2 u o) := by
  obtain ⟨-, -, -, -, -, -, -, -, -, -, -, -, e50, e51, -⟩ := idx_facts t
  unfold iblk
  rw [View.read_apply]
  show V m c main_v3 _ = m ((c : Thread nD τ).loc main_arg5) _
  rw [V_main_v3]
  congr 1
  funext a
  apply Fin.ext
  match a with
  | ⟨0, _⟩ => show win0_5.index t (0 : Fin 2) * 512 + 1 * u.val = u.val; omega
  | ⟨1, _⟩ => show win0_5.index t (1 : Fin 2) * 1 + 1 * o.val = o.val; omega

/-- The second bias block at any point: `b2`. -/
theorem b2_blk_apply (c : Dev nD) (t : Fin cfg0.N) (o : Fin 1) :
    (iblk m c 6 t : Vec Ideal S1 .f32) (ix1 o) = (m ((c : Thread nD τ).loc main_arg6) : S1.Idx → EReal) (ix1 o) := by
  obtain ⟨-, -, -, -, -, -, -, -, -, -, -, -, -, -, e60, -⟩ := idx_facts t
  unfold iblk
  rw [View.read_apply]
  show V m c main_arg6 _ = m ((c : Thread nD τ).loc main_arg6) _
  rw [V_main_arg6]
  congr 1
  funext a
  apply Fin.ext
  match a with
  | ⟨0, _⟩ => show win0_6.index t (0 : Fin 1) * 1 + 1 * o.val = o.val; omega

/-- The specification's logits of the argument arrays on core `c`. -/
abbrev L (c : Dev nD) : S64x512x1.Idx → EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT `t` WRITES BACK is block `t` of the logits. -/
theorem flushed_eq (c : Dev nD) (t : Fin cfg0.N) :
    (dats m 0 c).flushed 7 t = ((cfg0.win 7).blk t).view.read (Elt Ideal) (L m c) := by
  show (cfg0.win 7).cut (grid0.coords t) ((dats m 0 c).after 7 t) = _
  rw [after0_7]
  funext j
  revert j
  show ∀ j : S1x256x1.Idx, out0_7 (iblk m c 0 t) (iblk m c 1 t) (iblk m c 2 t) (iblk m c 3 t) (iblk m c 4 t) (iblk m c 5 t) (iblk m c 6 t) j
    = L m c (((cfg0.win 7).blk t).view.emb j)
  intro j
  obtain ⟨z, r, o, rfl⟩ : ∃ (z : Fin 1) (r : Fin 256) (o : Fin 1), j = ix3 z r o := ⟨_, _, _, eq_ix3 j⟩
  obtain rfl : z = 0 := Subsingleton.elim _ _
  obtain rfl : o = 0 := Subsingleton.elim _ _
  obtain ⟨-, -, -, -, -, -, -, -, -, -, -, -, -, -, -, e70, e71, e72⟩ := idx_facts t
  refine (block_apply (iblk m c 0 t) (iblk m c 1 t) (iblk m c 2 t) (iblk m c 3 t) (iblk m c 4 t) (iblk m c 5 t) (iblk m c 6 t) 0 r 0).trans ?_
  have k0 : ((((cfg0.win 7).blk t).view.emb (ix3 (0 : Fin 1) r (0 : Fin 1))) 0).val = win0_7.index t (0 : Fin 3) := by
    show win0_7.index t (0 : Fin 3) * 1 + 1 * 0 = _; omega
  have k1 : ((((cfg0.win 7).blk t).view.emb (ix3 (0 : Fin 1) r (0 : Fin 1))) 1).val = win0_7.index t (1 : Fin 3) * 256 + r.val := by
    show win0_7.index t (1 : Fin 3) * 256 + 1 * r.val = _; omega
  have hF : ∀ d : Fin 1024, (iblk m c 0 t : Vec Ideal S1x256x1024 .f32) (ix3 (0 : Fin 1) r d)
      = m ((c : Thread nD τ).loc main_arg0) (ix3 ((((cfg0.win 7).blk t).view.emb (ix3 (0 : Fin 1) r (0 : Fin 1))) 0) ((((cfg0.win 7).blk t).view.emb (ix3 (0 : Fin 1) r (0 : Fin 1))) 1) d) :=
    fun d => facts_blk_apply m c t r d _ k0 k1 rfl
  have hQ : ∀ d : Fin 1024, (iblk m c 1 t : Vec Ideal S1x1x1024 .f32) (ix3 (0 : Fin 1) (0 : Fin 1) d)
      = m ((c : Thread nD τ).loc main_arg1) (ix2 ((((cfg0.win 7).blk t).view.emb (ix3 (0 : Fin 1) r (0 : Fin 1))) 0) d) :=
    fun d => question_blk_apply m c t d _ k0 rfl
  have hM : ∀ d : Fin 1024, (iblk m c 2 t : Vec Ideal S1x1x1024 .f32) (ix3 (0 : Fin 1) (0 : Fin 1) d)
      = m ((c : Thread nD τ).loc main_arg2) (ix2 ((((cfg0.win 7).blk t).view.emb (ix3 (0 : Fin 1) r (0 : Fin 1))) 0) d) :=
    fun d => memory_blk_apply m c t d _ k0 rfl
  unfold L Cert.GateSpec.logits Cert.GateSpec.logit Cert.GateSpec.hidden Cert.GateSpec.prodFeat Cert.GateSpec.distFeat
  simp only [hF, hQ, hM, w1_blk_apply, b1_blk_apply, w2_blk_apply, b2_blk_apply]

/-- An index of the logits array is in point `t`'s block iff each coordinate is in the block's range on its axis. -/
theorem mem_blk (t : Fin cfg0.N) (i : S64x512x1.Idx) :
    i ∈ ((cfg0.win 7).blk t).view.set ↔ ∀ a : Fin 3, win0_7.index t a * S1x256x1.size a ≤ (i a).val ∧ (i a).val < win0_7.index t a * S1x256x1.size a + S1x256x1.size a := by
  show i ∈ ((View.whole main_v4).slice (win0_7.rect t)).set ↔ _
  rw [View.set_slice_whole, Rect.mem_set_unit]
  exact Iff.rfl

/-- Every index of the logits array is in some point's block: entry `b`, row `r` is in the block of point (b, r / 256). -/
theorem cover (i : S64x512x1.Idx) : ∃ t : Fin cfg0.N, (cfg0.win 7).flush t = true ∧ i ∈ ((cfg0.win 7).blk t).view.set := by
  have hi0 : (i 0).val < 64 := (i 0).isLt
  have hi1 : (i 1).val < 512 := (i 1).isLt
  have hi2 : (i 2).val < 1 := (i 2).isLt
  obtain ⟨t, ht⟩ := idx_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1 ≤ (i 2).val ∧ (i 2).val < win0_7.index t (2 : Fin 3) * 1 + 1; omega

/-- THE LOGITS ARRAY after the region: the specification's logits of the argument arrays. -/
theorem final (c : Dev nD) : (dats m 0 c).arrAt 7 cfg0.N = L m c :=
  (dats m 0 c).arrAt_eq_of_cover 7 (L m c) (fun t _ => flushed_eq m c t) (cover)

end Cert.KernelIdeal.GateValue

end
-- ==== Proof.Tail.lean ====
/-
  The softmax over the last axis, which has one entry: both programs end with these host operations, applied to
  their logits. The largest entry along the axis (started from −∞, and taken once more against −∞) is subtracted,
  the exponential is taken, and the result is divided by its sum along the axis (started from 0).
-/
import proofs.«144417_j83141976916929_1_alg».proof.Proof.Gen.KernelIdeal
import Idealize.ShloMosaic.PureOps.Ideal

noncomputable section

namespace Cert.KernelIdeal.GateValue

open Cert.KernelIdeal Cert.KernelIdeal.Gen Idealize.ShloMosaic

/-- The constant −∞ and the constant 0, as scalars. -/
def negInf : FVec Ideal S_ .f32 := constant (F := Ideal) S_ .f32 0xFF800000#32
def zero : FVec Ideal S_ .f32 := constant (F := Ideal) S_ .f32 0x00000000#32

/-- The largest entry along the last axis, against −∞. -/
def rowMax (x : FVec Ideal S64x512x1 .f32) : FVec Ideal S64x512 .f32 :=
  maximumf (F := Ideal) (broadcastInDim S64x512 ![] bcast_S_S64x512 negInf)
    (Host.reduce (FloatOps.maximumf (F := Ideal) (φ := .f32)) x negInf reducesTo_S64x512x1_S64x512_d2 h_S_)

/-- The exponential of each entry less the largest along the last axis. -/
def shiftedExp (x : FVec Ideal S64x512x1 .f32) : FVec Ideal S64x512x1 .f32 :=
  Host.exp (F := Ideal) (subf (F := Ideal) x (broadcastInDim S64x512x1 ![0, 1] bcast_S64x512_S64x512x1_0_1 (rowMax x)))

/-- The softmax over the last axis. -/
def softmaxTail (x : FVec Ideal S64x512x1 .f32) : FVec Ideal S64x512x1 .f32 :=
  Host.divf (F := Ideal) (shiftedExp x)
    (broadcastInDim S64x512x1 ![0, 1] bcast_S64x512_S64x512x1_0_1
      (Host.reduceAdd (F := Ideal) (shiftedExp x) zero reducesTo_S64x512x1_S64x512_d2 h_S_))

end Cert.KernelIdeal.GateValue

end
-- ==== Proof.RefLogits.lean ====
/-
  The reference program's logits are the specification's logits.

  Fix a batch entry `b`, a time step `t` and a feature column `d`. The question row and the memory row are each
  broadcast twice, first to shape 64 × 1 × 1024 and then along the time axis, so at `(b, t, d)` either broadcast
  reads its row at `(b, d)`. Hence the four feature maps at `(b, t, d)` are the products `f(b,t,d) · q(b,d)` and
  `f(b,t,d) · m(b,d)` and the distances `|f(b,t,d) − q(b,d)|` and `|f(b,t,d) − m(b,d)|`, an absolute value being
  the larger of a number and its negative.

  The four maps are joined along the last axis into an array of width 4096 = 4 · 1024. Read quarter by quarter,
  column `1024·s + d` of the joined array is column `d` of piece `s`, for `s = 0, 1, 2, 3`: the pieces before
  piece `s` take up exactly `1024·s` columns.

  The first layer contracts the 4096 columns against the rows of `W1`. A sum over 4096 consecutive indices is the
  sum of its four quarters, and in quarter `s` the term at `d` is feature map `s` at `(b, t, d)` times row
  `1024·s + d` of `W1`; so unit `u` of the first layer, with its bias `b1(u)` added, is the specification's
  `hidden b t u`.

  The hyperbolic tangent is applied entry by entry, the second layer contracts the 512 units against the one column
  of `W2`, and the bias `b2` (one number, broadcast everywhere) is added: that is the specification's `logit b t`.
  The last axis of the result has extent one, so every index is `(b, t, 0)`, and stage 21 of the reference, as a
  whole array, is the specification's `logits`.
-/
import proofs.«144417_j83141976916929_1_alg».proof.Proof.Gen.ReferenceIdeal.Read
import proofs.«144417_j83141976916929_1_alg».proof.Proof.Spec
noncomputable section
namespace Cert.ReferenceIdeal.RefValue
open Cert.ReferenceIdeal Cert.ReferenceIdeal.Gen Cert.ReferenceIdeal.Read Idealize.ShloMosaic Idealize.ShloMosaic.ValueIdx

/-! ## The generated index maps on explicit coordinates -/

/-- The question row read under the two broadcasts: entry `(b, t, d)` reads `(b, d)`. -/
theorem idx_v0_v2 (b : Fin 64) (t : Fin 512) (d : Fin 1024) : idx_main_v0 (idx_main_v2 (ix3 b t d)) = ix2 b d := by
  funext a; match a with | ⟨0, _⟩ => rfl | ⟨1, _⟩ => rfl
theorem idx_v0_v6 (b : Fin 64) (t : Fin 512) (d : Fin 1024) : idx_main_v0 (idx_main_v6 (ix3 b t d)) = ix2 b d := by
  funext a; match a with | ⟨0, _⟩ => rfl | ⟨1, _⟩ => rfl
/-- The memory row read under the two broadcasts. -/
theorem idx_v1_v4 (b : Fin 64) (t : Fin 512) (d : Fin 1024) : idx_main_v1 (idx_main_v4 (ix3 b t d)) = ix2 b d := by
  funext a; match a with | ⟨0, _⟩ => rfl | ⟨1, _⟩ => rfl
theorem idx_v1_v9 (b : Fin 64) (t : Fin 512) (d : Fin 1024) : idx_main_v1 (idx_main_v9 (ix3 b t d)) = ix2 b d := by
  funext a; match a with | ⟨0, _⟩ => rfl | ⟨1, _⟩ => rfl
/-- The first bias read under its two broadcasts: unit `u`. -/
theorem idx_v14_v15 (b : Fin 64) (t : Fin 512) (u : Fin 512) : idx_main_v14 (idx_main_v15 (ix3 b t u)) = ix1 u := by
  funext a; match a with | ⟨0, _⟩ => rfl
/-- The second bias read under its two broadcasts: its one entry. -/
theorem idx_v19_v20 (b : Fin 64) (t : Fin 512) (z : Fin 1) : idx_main_v19 (idx_main_v20 (ix3 b t z)) = ix1 (0 : Fin 1) := by
  funext a; match a with | ⟨0, _⟩ => rfl
/-- The first contraction's left index: row `(b, t)`, column `k` of the concatenated features. -/
theorem lidx_v13 (b : Fin 64) (t : Fin 512) (u : Fin 512) (k : Fin 4096) : lidx_main_v13 (ix3 b t u) k = ix3 b t k := by
  funext a; match a with | ⟨0, _⟩ => rfl | ⟨1, _⟩ => rfl | ⟨2, _⟩ => rfl
/-- The first contraction's right index: row `k`, column `u` of the first layer's weights. -/
theorem ridx_v13 (b : Fin 64) (t : Fin 512) (u : Fin 512) (k : Fin 4096) : ridx_main_v13 (ix3 b t u) k = ix2 k u := by
  funext a; match a with | ⟨0, _⟩ => rfl | ⟨1, _⟩ => rfl
/-- The second contraction's left index. -/
theorem lidx_v18 (b : Fin 64) (t : Fin 512) (z : Fin 1) (k : Fin 512) : lidx_main_v18 (ix3 b t z) k = ix3 b t k := by
  funext a; match a with | ⟨0, _⟩ => rfl | ⟨1, _⟩ => rfl | ⟨2, _⟩ => rfl
/-- The second contraction's right index. -/
theorem ridx_v18 (b : Fin 64) (t : Fin 512) (z : Fin 1) (k : Fin 512) : ridx_main_v18 (ix3 b t z) k = ix2 k z := by
  funext a; match a with | ⟨0, _⟩ => rfl | ⟨1, _⟩ => rfl

variable (x0 : (⟨S64x512x1024, .f32⟩ : BufTy).Contents (Elt Ideal)) (x1 x2 : (⟨S64x1024, .f32⟩ : BufTy).Contents (Elt Ideal))
  (x3 : (⟨S4096x512, .f32⟩ : BufTy).Contents (Elt Ideal)) (x4 : (⟨S512, .f32⟩ : BufTy).Contents (Elt Ideal))
  (x5 : (⟨S512x1, .f32⟩ : BufTy).Contents (Elt Ideal)) (x6 : (⟨S1, .f32⟩ : BufTy).Contents (Elt Ideal))

/-! ## The four feature maps at an entry -/

/-- The product of the facts with the question. -/
theorem v3_at (b : Fin 64) (t : Fin 512) (d : Fin 1024) :
    val_main_v3 (F := Ideal) x0 x1 (ix3 b t d) = Cert.GateSpec.prodFeat x0 x1 b t d := by
  rw [val_main_v3_apply, val_main_v2_apply, val_main_v0_apply, idx_v0_v2]; rfl
/-- The product of the facts with the memory. -/
theorem v5_at (b : Fin 64) (t : Fin 512) (d : Fin 1024) :
    val_main_v5 (F := Ideal) x0 x2 (ix3 b t d) = Cert.GateSpec.prodFeat x0 x2 b t d := by
  rw [val_main_v5_apply, val_main_v4_apply, val_main_v1_apply, idx_v1_v4]; rfl
/-- The distance of the facts from the question. -/
theorem v8_at (b : Fin 64) (t : Fin 512) (d : Fin 1024) :
    val_main_v8 (F := Ideal) x0 x1 (ix3 b t d) = Cert.GateSpec.distFeat x0 x1 b t d := by
  rw [val_main_v8_apply, val_main_v7_apply, val_main_v6_apply, val_main_v0_apply, idx_v0_v6]; rfl
/-- The distance of the facts from the memory. -/
theorem v11_at (b : Fin 64) (t : Fin 512) (d : Fin 1024) :
    val_main_v11 (F := Ideal) x0 x2 (ix3 b t d) = Cert.GateSpec.distFeat x0 x2 b t d := by
  rw [val_main_v11_apply, val_main_v10_apply, val_main_v9_apply, val_main_v1_apply, idx_v1_v9]; rfl

/-! ## The concatenation read quarter by quarter -/

/-- Columns `0 …` of the concatenation are the first feature map. -/
theorem v12_q0 (b : Fin 64) (t : Fin 512) (d : Fin 1024) :
    val_main_v12 (F := Ideal) x0 x1 x2 (ix3 b t (Cert.GateSpec.sliceRow 0 (by omega) d)) = val_main_v3 (F := Ideal) x0 x1 (ix3 b t d) := by
  unfold val_main_v12
  refine concatenate_apply_piece (t := S64x512x4096) 2 _ _ _ 0 ?_ S64x512x1024 (val_main_v3 (F := Ideal) x0 x1) ?_ rfl 0 ?_ (ix3 b t d) ?_ ?_
  · exact (by decide : 0 < 4)
  · rfl
  · rfl
  · intro c hc
    match c with
    | ⟨0, _⟩ => rfl
    | ⟨1, _⟩ => rfl
    | ⟨2, _⟩ => exact absurd (Fin.ext rfl) hc
  · rfl
/-- Columns `1024 …` are the second. -/
theorem v12_q1 (b : Fin 64) (t : Fin 512) (d : Fin 1024) :
    val_main_v12 (F := Ideal) x0 x1 x2 (ix3 b t (Cert.GateSpec.sliceRow 1024 (by omega) d)) = val_main_v5 (F := Ideal) x0 x2 (ix3 b t d) := by
  unfold val_main_v12
  refine concatenate_apply_piece (t := S64x512x4096) 2 _ _ _ 1 ?_ S64x512x1024 (val_main_v5 (F := Ideal) x0 x2) ?_ rfl 1024 ?_ (ix3 b t d) ?_ ?_
  · exact (by decide : 1 < 4)
  · rfl
  · rfl
  · intro c hc
    match c with
    | ⟨0, _⟩ => rfl
    | ⟨1, _⟩ => rfl
    | ⟨2, _⟩ => exact absurd (Fin.ext rfl) hc
  · rfl
/-- Columns `2048 …` are the third. -/
theorem v12_q2 (b : Fin 64) (t : Fin 512) (d : Fin 1024) :
    val_main_v12 (F := Ideal) x0 x1 x2 (ix3 b t (Cert.GateSpec.sliceRow 2048 (by omega) d)) = val_main_v8 (F := Ideal) x0 x1 (ix3 b t d) := by
  unfold val_main_v12
  refine concatenate_apply_piece (t := S64x512x4096) 2 _ _ _ 2 ?_ S64x512x1024 (val_main_v8 (F := Ideal) x0 x1) ?_ rfl 2048 ?_ (ix3 b t d) ?_ ?_
  · exact (by decide : 2 < 4)
  · rfl
  · rfl
  · intro c hc
    match c with
    | ⟨0, _⟩ => rfl
    | ⟨1, _⟩ => rfl
    | ⟨2, _⟩ => exact absurd (Fin.ext rfl) hc
  · rfl
/-- Columns `3072 …` are the fourth. -/
theorem v12_q3 (b : Fin 64) (t : Fin 512) (d : Fin 1024) :
    val_main_v12 (F := Ideal) x0 x1 x2 (ix3 b t (Cert.GateSpec.sliceRow 3072 (by omega) d)) = val_main_v11 (F := Ideal) x0 x2 (ix3 b t d) := by
  unfold val_main_v12
  refine concatenate_apply_piece (t := S64x512x4096) 2 _ _ _ 3 ?_ S64x512x1024 (val_main_v11 (F := Ideal) x0 x2) ?_ rfl 3072 ?_ (ix3 b t d) ?_ ?_
  · exact (by decide : 3 < 4)
  · rfl
  · rfl
  · intro c hc
    match c with
    | ⟨0, _⟩ => rfl
    | ⟨1, _⟩ => rfl
    | ⟨2, _⟩ => exact absurd (Fin.ext rfl) hc
  · rfl

/-! ## One term of the first contraction, quarter by quarter -/

theorem term_q0 (b : Fin 64) (t : Fin 512) (u : Fin 512) (d : Fin 1024) :
    val_main_v12 (F := Ideal) x0 x1 x2 (lidx_main_v13 (ix3 b t u) (Cert.GateSpec.sliceRow 0 (by omega) d))
        * x3 (ridx_main_v13 (ix3 b t u) (Cert.GateSpec.sliceRow 0 (by omega) d))
      = Cert.GateSpec.prodFeat x0 x1 b t d * x3 (ix2 (Cert.GateSpec.sliceRow 0 (by omega) d) u) := by
  rw [lidx_v13, ridx_v13, v12_q0, v3_at]
theorem term_q1 (b : Fin 64) (t : Fin 512) (u : Fin 512) (d : Fin 1024) :
    val_main_v12 (F := Ideal) x0 x1 x2 (lidx_main_v13 (ix3 b t u) (Cert.GateSpec.sliceRow 1024 (by omega) d))
        * x3 (ridx_main_v13 (ix3 b t u) (Cert.GateSpec.sliceRow 1024 (by omega) d))
      = Cert.GateSpec.prodFeat x0 x2 b t d * x3 (ix2 (Cert.GateSpec.sliceRow 1024 (by omega) d) u) := by
  rw [lidx_v13, ridx_v13, v12_q1, v5_at]
theorem term_q2 (b : Fin 64) (t : Fin 512) (u : Fin 512) (d : Fin 1024) :
    val_main_v12 (F := Ideal) x0 x1 x2 (lidx_main_v13 (ix3 b t u) (Cert.GateSpec.sliceRow 2048 (by omega) d))
        * x3 (ridx_main_v13 (ix3 b t u) (Cert.GateSpec.sliceRow 2048 (by omega) d))
      = Cert.GateSpec.distFeat x0 x1 b t d * x3 (ix2 (Cert.GateSpec.sliceRow 2048 (by omega) d) u) := by
  rw [lidx_v13, ridx_v13, v12_q2, v8_at]
theorem term_q3 (b : Fin 64) (t : Fin 512) (u : Fin 512) (d : Fin 1024) :
    val_main_v12 (F := Ideal) x0 x1 x2 (lidx_main_v13 (ix3 b t u) (Cert.GateSpec.sliceRow 3072 (by omega) d))
        * x3 (ridx_main_v13 (ix3 b t u) (Cert.GateSpec.sliceRow 3072 (by omega) d))
      = Cert.GateSpec.distFeat x0 x2 b t d * x3 (ix2 (Cert.GateSpec.sliceRow 3072 (by omega) d) u) := by
  rw [lidx_v13, ridx_v13, v12_q3, v11_at]

/-! ## The two layers -/

/-- The first layer before the tangent is the specification's `hidden`. -/
theorem v16_at (b : Fin 64) (t : Fin 512) (u : Fin 512) :
    val_main_v16 (F := Ideal) x0 x1 x2 x3 x4 (ix3 b t u) = Cert.GateSpec.hidden x0 x1 x2 x3 x4 b t u := by
  rw [val_main_v16_apply, val_main_v13_apply, val_main_v15_apply, val_main_v14_apply, idx_v14_v15,
    Cert.GateSpec.sum_four_slices, Ideal.addf_def]
  unfold Cert.GateSpec.hidden
  refine congrArg₂ (· + ·) (congrArg₂ (· + ·) (congrArg₂ (· + ·) (congrArg₂ (· + ·) ?_ ?_) ?_) ?_) rfl
  · exact Finset.sum_congr rfl fun d _ => term_q0 x0 x1 x2 x3 b t u d
  · exact Finset.sum_congr rfl fun d _ => term_q1 x0 x1 x2 x3 b t u d
  · exact Finset.sum_congr rfl fun d _ => term_q2 x0 x1 x2 x3 b t u d
  · exact Finset.sum_congr rfl fun d _ => term_q3 x0 x1 x2 x3 b t u d

/-- The second layer with its bias is the specification's `logit`. -/
theorem v21_at (b : Fin 64) (t : Fin 512) :
    val_main_v21 (F := Ideal) x0 x1 x2 x3 x4 x5 x6 (ix3 b t (0 : Fin 1)) = Cert.GateSpec.logit x0 x1 x2 x3 x4 x5 x6 b t := by
  rw [val_main_v21_apply, val_main_v18_apply, val_main_v20_apply, val_main_v19_apply, idx_v19_v20, Ideal.addf_def]
  unfold Cert.GateSpec.logit
  refine congrArg₂ (· + ·) (Finset.sum_congr rfl fun u _ => ?_) rfl
  rw [lidx_v18, ridx_v18, val_main_v17_apply, v16_at, Ideal.hostUnary_tanh_def]

/-- stage 21 of the reference (the logits, before the softmax) is the specification's logits -/
theorem val_main_v21_eq_logits
    (x0 : (⟨S64x512x1024, .f32⟩ : BufTy).Contents (Elt Ideal)) (x1 x2 : (⟨S64x1024, .f32⟩ : BufTy).Contents (Elt Ideal))
    (x3 : (⟨S4096x512, .f32⟩ : BufTy).Contents (Elt Ideal)) (x4 : (⟨S512, .f32⟩ : BufTy).Contents (Elt Ideal))
    (x5 : (⟨S512x1, .f32⟩ : BufTy).Contents (Elt Ideal)) (x6 : (⟨S1, .f32⟩ : BufTy).Contents (Elt Ideal)) :
    val_main_v21 (F := Ideal) x0 x1 x2 x3 x4 x5 x6 = Cert.GateSpec.logits x0 x1 x2 x3 x4 x5 x6 := by
  funext i
  obtain ⟨b, t, z, rfl⟩ : ∃ (b : Fin 64) (t : Fin 512) (z : Fin 1), i = ix3 b t z := ⟨_, _, _, eq_ix3 i⟩
  obtain rfl : z = 0 := Subsingleton.elim _ _
  exact v21_at x0 x1 x2 x3 x4 x5 x6 b t
end Cert.ReferenceIdeal.RefValue
end
-- ==== Proof.Result.lean ====
/-
  The two programs' results as one function of the arguments: the softmax of the specification's logits.

  Kernel side: the host lines after the call read the logits array the region left, which is the specification's
  logits; the seven argument arrays end as they began. Reference side: its last stage is the same softmax lines
  applied to its stage of logits, which is the specification's logits too.
-/
import proofs.«144417_j83141976916929_1_alg».proof.Proof.KernelArray
import proofs.«144417_j83141976916929_1_alg».proof.Proof.Tail
import proofs.«144417_j83141976916929_1_alg».proof.Proof.RefLogits

noncomputable section

open Idealize.ShloMosaic Idealize.ShloMosaic.TcCoe Idealize.SL.Sem
open Idealize.ShloMosaic.Pipeline (Dat)

namespace Cert.KernelIdeal.GateValue

open Cert.KernelIdeal Cert.KernelIdeal.Gen Idealize.ShloMosaic.ValueIdx Idealize.ShloMosaic.StableHlo Cert.GateSpec

variable (m : (ℓ : Loc nD τ sig) → Buf (Elt Ideal) ℓ) (ρ : Dev nD → PrngReg)

/-- The logits array as the host lines after the call find it. -/
theorem logits_after_region (c : Dev nD) :
    Pipeline.withArrays (cfgs 0).spec c (V0 m c) (fun w => (dats m 0 c).arrAt w (cfgs 0).N) (Proc.devRef .tc main_v4) = L m c :=
  (Pipeline.withArrays_arr spec0 launch0.win.arr_inj c _ _ 7).trans (final m c)

/-- The kernel's result: the host lines after the call applied to the logits array. -/
theorem result_eq (c : Dev nD) :
    Pipeline.afterTail₀ cfgs (dats m) 0 (V0 m) [hostOps1] c main_v13 = softmaxTail (L m c) := by
  unfold Pipeline.afterTail₀
  show StableHlo.after hostOps1 _ (Proc.devRef .tc main_v13) = _
  after_results
  rw [logits_after_region]
  rfl

/-- Every weakly fair execution of the kernel program ends with the result at the softmax of the logits and the
    argument arrays unchanged. -/
theorem run : θ_run defs (onTc (τ := τ) (main (F := Ideal))) ⟨m, fun _ => 0, ρ⟩ fun r => ∀ c : Dev nD,
      r.2.mem ((c.tc : Thread nD τ).loc main_v13) = softmaxTail (L m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.GateValue

namespace Cert.ReferenceIdeal.RefValue

open Cert.ReferenceIdeal Cert.ReferenceIdeal.Gen Cert.ReferenceIdeal.Read

/-- The reference's result is the softmax of the specification's logits of its arguments. -/
theorem ref_result (m' : (ℓ : Loc nD τ sig) → Buf (Elt Ideal) ℓ) (c : Dev nD) :
    Cert.ReferenceIdeal.Value.res_main_v30 m' c
      = Cert.KernelIdeal.GateValue.softmaxTail (Cert.GateSpec.logits (m' ((c.tc : Thread nD τ).loc main_arg0))
          (m' ((c.tc : Thread nD τ).loc main_arg1)) (m' ((c.tc : Thread nD τ).loc main_arg2)) (m' ((c.tc : Thread nD τ).loc main_arg3))
          (m' ((c.tc : Thread nD τ).loc main_arg4)) (m' ((c.tc : Thread nD τ).loc main_arg5)) (m' ((c.tc : Thread nD τ).loc main_arg6))) := by
  rw [val_main_v30_eq, ← val_main_v21_eq_logits]
  rfl

end Cert.ReferenceIdeal.RefValue

end
-- ==== Proof.lean ====
/-
  The gate of an attention-style memory network, tiled over (batch entry, 256-row tile of the time axis), against its
  plain array program, at the ideal values (floats as extended reals, every operation exact, a change of float format
  the identity).

  Both programs compute, for batch entry `b` and time step `t`, the logit
      ∑ᵤ tanh( (z(b,t,·) · W1)(u) + b1(u) ) · W2(u) + b2
  where z(b,t,·) is the concatenation of f·q, f·m, |f − q|, |f − m| over the 1024 features, and then a softmax over
  an axis with one entry. The reference contracts the concatenation, 4096 wide, at once; the kernel contracts the four
  slices separately against the four 1024-row slices of W1 and adds the four results. A sum over 4096 consecutive
  indices is the sum of its four quarters in any commutative monoid, so the two agree on all extended reals and the
  finiteness of the inputs is never used. The kernel's 64 × 2 blocks of 256 rows tile the logits array; the softmax
  lines are the same in both programs and are applied to equal arrays.

  The idealization rewrote nothing, so it preserves the kernel trivially; the two kernel frames are the generated ones
  and the reference's frame is its generated run.
-/
import proofs.«144417_j83141976916929_1_alg».proof.Defs
import proofs.«144417_j83141976916929_1_alg».proof.Proof.Gen.Kernel
import proofs.«144417_j83141976916929_1_alg».proof.Proof.Gen.Kernel.Skeleton
import proofs.«144417_j83141976916929_1_alg».proof.Proof.Gen.Kernel.Launch
import proofs.«144417_j83141976916929_1_alg».proof.Proof.Gen.Kernel.Points
import proofs.«144417_j83141976916929_1_alg».proof.Proof.Gen.Kernel.Frame
import proofs.«144417_j83141976916929_1_alg».proof.Proof.Gen.KernelIdeal
import proofs.«144417_j83141976916929_1_alg».proof.Proof.Gen.KernelIdeal.Skeleton
import proofs.«144417_j83141976916929_1_alg».proof.Proof.Gen.KernelIdeal.Launch
import proofs.«144417_j83141976916929_1_alg».proof.Proof.Gen.KernelIdeal.Points
import proofs.«144417_j83141976916929_1_alg».proof.Proof.Gen.KernelIdeal.Frame
import proofs.«144417_j83141976916929_1_alg».proof.Proof.Gen.ReferenceIdeal
import proofs.«144417_j83141976916929_1_alg».proof.Proof.Gen.Pre_finite_inputs
import proofs.«144417_j83141976916929_1_alg».proof.Proof.Gen.ReferenceIdeal.Run
import proofs.«144417_j83141976916929_1_alg».proof.Proof.Gen.ReferenceIdeal.Read
import proofs.«144417_j83141976916929_1_alg».proof.Proof.Result
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the softmax of the same logits. -/
theorem algebraic : Cert.algebraic_KernelIdeal_ReferenceIdeal := by
  intro m ρ m' ρ' _ hagree
  refine ⟨fun c => Cert.KernelIdeal.GateValue.softmaxTail (Cert.KernelIdeal.GateValue.L m c),
    Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.ref_result, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
